-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64 .f32) (main_arg8 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 49
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x1, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64, .f32⟩
  | .hbm, ⟨48, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result buffer in the post.

  The program is two launches of the dense-step kernel among stretches of host operations (index preparation, the
  gather of source rows, their scaling by the edge weights, the scatter-add into the destination rows). The generated
  frame lists, boundary by boundary, what every unscoped buffer holds: the launch memory, then each host stretch folded
  over it, then each launch's arrays replaced by what its write-backs leave. Its last boundary `W4` therefore names
  the contents of EVERY unscoped buffer at the return, the result buffer among them. Here the same chain of segments is
  launched once more, reading off the last boundary at the result buffer as well as at the arguments.
-/
import proofs.«159443_j26431228739921_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates; at the return the result buffer holds what the last
    boundary of the generated chain says it holds, and the nine arguments hold what they were launched with. -/
theorem run_last : θ_run defs (onTc (τ := τ) (main (F := F))) ⟨m, fun _ => 0, ρ⟩ (fun r => ∀ c : Dev nD,
      r.2.mem ((c : Thread nD τ).loc main_v33) = W4 m ρ c (Proc.devRef .tc main_v33)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core gets a ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- the first thread state: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state read against a final state: every unscoped buffer at the last boundary's contents
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.KernelHost.lean ====
/-
  What the two launches find in their arrays.

  Before each launch the host computes the layer's neighbour sums: the source and destination rows of the edges are cut
  out of the edge-index array, a negative source row is wrapped by the row count, the source rows of the features are
  gathered, scaled edge by edge by the edge weight, and added into the destination rows of a zero array. That whole
  stretch is ONE function `agg` of (features, source rows, destination rows, edge weights); it is never opened here.
  The first launch finds `agg` of the input features, the input features, the first layer's matrices and its bias as
  one row; the second finds `agg` of the first launch's output, that output, the second layer's matrices and bias.
-/
import proofs.«159443_j26431228739921_1_alg».proof.Proof.Gen.KernelIdeal.Frame
import Idealize.ShloMosaic.Lib.StableHlo.Run
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- The edges' source rows: row 0 of the edge-index array. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' destination rows: row 1 of the edge-index array. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The neighbour sums: for every edge the source row of `x` (a negative row number wrapped by the row count) scaled
    by the edge's weight, added into the destination row of a zero array. -/
def agg (x : (⟨S100000x64, .f32⟩ : BufTy).Contents (Elt Ideal)) (src dst : (⟨S1600000, .i32⟩ : BufTy).Contents (Elt Ideal))
    (ew : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 ew)))

variable (m : (ℓ : Loc nD τ sig) → Buf (Elt Ideal) ℓ) (ρ : Dev nD → PrngReg)

/-! ## The first launch's entry contents -/

set_option maxHeartbeats 1600000 in
theorem first_agg (c : Dev nD) : V1 m ρ c main_v16
    = agg (m ((c : Thread nD τ).loc main_arg0)) (srcOf (m ((c : Thread nD τ).loc main_arg1))) (dstOf (m ((c : Thread nD τ).loc main_arg1)))
        (m ((c : Thread nD τ).loc main_arg2)) := by
  show StableHlo.after hostOps0 (W0 m ρ c) (Proc.devRef .tc main_v16)
    = agg (W0 m ρ c (Proc.devRef .tc main_arg0)) (srcOf (W0 m ρ c (Proc.devRef .tc main_arg1))) (dstOf (W0 m ρ c (Proc.devRef .tc main_arg1)))
        (W0 m ρ c (Proc.devRef .tc main_arg2))
  after_results
  unfold agg srcOf dstOf
  rfl

theorem first_x (c : Dev nD) : V1 m ρ c main_arg0 = m ((c : Thread nD τ).loc main_arg0) := by
  show StableHlo.after hostOps0 (W0 m ρ c) (Proc.devRef .tc main_arg0) = _
  after_results

theorem first_wrel (c : Dev nD) : V1 m ρ c main_arg3 = m ((c : Thread nD τ).loc main_arg3) := by
  show StableHlo.after hostOps0 (W0 m ρ c) (Proc.devRef .tc main_arg3) = _
  after_results

theorem first_wroot (c : Dev nD) : V1 m ρ c main_arg5 = m ((c : Thread nD τ).loc main_arg5) := by
  show StableHlo.after hostOps0 (W0 m ρ c) (Proc.devRef .tc main_arg5) = _
  after_results

theorem first_bias (c : Dev nD) : V1 m ρ c main_v17
    = shapeCast S1x64 (m ((c : Thread nD τ).loc main_arg4)) shapeCasts_S64_S1x64 := by
  show StableHlo.after hostOps0 (W0 m ρ c) (Proc.devRef .tc main_v17) = _
  after_results
  rfl

/-- The source and destination rows are computed once, before the first launch. -/
theorem first_src (c : Dev nD) : W1 m ρ c (Proc.devRef .tc main_v1) = srcOf (m ((c : Thread nD τ).loc main_arg1)) := by
  show StableHlo.after hostOps0 (W0 m ρ c) (Proc.devRef .tc main_v1) = _
  after_results
  rfl

theorem first_dst (c : Dev nD) : W1 m ρ c (Proc.devRef .tc main_v3) = dstOf (m ((c : Thread nD τ).loc main_arg1)) := by
  show StableHlo.after hostOps0 (W0 m ρ c) (Proc.devRef .tc main_v3) = _
  after_results
  rfl

theorem first_keeps (c : Dev nD) (b : Ref sig .tc) (hb : b = main_arg2 ∨ b = main_arg6 ∨ b = main_arg7 ∨ b = main_arg8) :
    W1 m ρ c (Proc.devRef .tc b) = m ((c : Thread nD τ).loc b) := by
  show StableHlo.after hostOps0 (W0 m ρ c) (Proc.devRef .tc b) = _
  rcases hb with rfl | rfl | rfl | rfl <;> after_results

/-! ## The second launch's entry contents, over what the first launch left -/

theorem second_agg (c : Dev nD) : V3 m ρ c main_v31
    = agg (W2 m ρ c (Proc.devRef .tc main_v18)) (W2 m ρ c (Proc.devRef .tc main_v1)) (W2 m ρ c (Proc.devRef .tc main_v3))
        (W2 m ρ c (Proc.devRef .tc main_arg2)) := by
  show StableHlo.after hostOps1 (W2 m ρ c) (Proc.devRef .tc main_v31) = _
  after_results
  rfl

theorem second_h (c : Dev nD) : V3 m ρ c main_v18 = W2 m ρ c (Proc.devRef .tc main_v18) := by
  show StableHlo.after hostOps1 (W2 m ρ c) (Proc.devRef .tc main_v18) = _
  after_results

theorem second_wrel (c : Dev nD) : V3 m ρ c main_arg6 = W2 m ρ c (Proc.devRef .tc main_arg6) := by
  show StableHlo.after hostOps1 (W2 m ρ c) (Proc.devRef .tc main_arg6) = _
  after_results

theorem second_wroot (c : Dev nD) : V3 m ρ c main_arg8 = W2 m ρ c (Proc.devRef .tc main_arg8) := by
  show StableHlo.after hostOps1 (W2 m ρ c) (Proc.devRef .tc main_arg8) = _
  after_results

theorem second_bias (c : Dev nD) : V3 m ρ c main_v32
    = shapeCast S1x64 (W2 m ρ c (Proc.devRef .tc main_arg7)) shapeCasts_S64_S1x64 := by
  show StableHlo.after hostOps1 (W2 m ρ c) (Proc.devRef .tc main_v32) = _
  after_results
  rfl

end Cert.KernelIdeal.HostSide

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«159443_j26431228739921_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«159443_j26431228739921_1_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibGraphConv.lean ====
/-
  The dense step of a graph convolution as one whole-array function, for any extents.

  After the neighbours' features have been summed into `a`, a graph-convolution layer maps the pair (`a`, `x`) of
  `[R, K]` arrays to the `[R, N]` array whose entry (r, c) is

      (Σ_k a(r,k) · wr(k,c)  +  Σ_k x(r,k) · wo(k,c))  +  b(c),

  optionally floored at `z` entry by entry (a rectifier is the floor at zero). On the extended reals addition is
  commutative and associative with no finiteness condition, so a program that adds the bias last, `(p + q) + b`, and one
  that adds it between the two products, `(p + b) + q`, compute the same array. This file states the function once
  (`conv`, `convMax`), shows that the vector unit's spelling on a block of rows and the host's spelling on the whole
  array are both it, and that an entry depends on `a` and `x` only through its own row, on the matrices only through
  its own column, and on the bias only at its own column.
-/
import proofs.«159443_j26431228739921_1_alg».proof.Proof.LibRowBias
import proofs.«159443_j26431228739921_1_alg».proof.Proof.LibHostRow

noncomputable section

namespace Cert.GraphConv

open Idealize.ShloMosaic Idealize.ShloMosaic.ValueIdx
open Cert.MatProduct (rowOf colOf prod)

/-- The dense step: two products with fixed matrices on the right, added, plus a bias that depends on the column only. -/
def conv {R K N : ℕ} (a x : (⟨2, ![R, K]⟩ : Shape).Idx → EReal) (wr wo : (⟨2, ![K, N]⟩ : Shape).Idx → EReal)
    (b : Fin N → EReal) : (⟨2, ![R, N]⟩ : Shape).Idx → EReal :=
  fun y => (prod a wr y + prod x wo y) + b (colOf y)

/-- The dense step floored at `z`, entry by entry. -/
def convMax {R K N : ℕ} (a x : (⟨2, ![R, K]⟩ : Shape).Idx → EReal) (wr wo : (⟨2, ![K, N]⟩ : Shape).Idx → EReal)
    (b : Fin N → EReal) (z : EReal) : (⟨2, ![R, N]⟩ : Shape).Idx → EReal :=
  fun y => max (conv a x wr wo b y) z

/-- Two dense steps agree at two entries when the rows of `a` and `x`, the columns of the matrices and the bias
    entries that those two entries read agree. -/
theorem conv_entry_congr {R R' K N : ℕ}
    {a x : (⟨2, ![R, K]⟩ : Shape).Idx → EReal} {a' x' : (⟨2, ![R', K]⟩ : Shape).Idx → EReal}
    {wr wo wr' wo' : (⟨2, ![K, N]⟩ : Shape).Idx → EReal} {b b' : Fin N → EReal}
    (y : (⟨2, ![R, N]⟩ : Shape).Idx) (y' : (⟨2, ![R', N]⟩ : Shape).Idx)
    (ha : ∀ k : Fin K, a (ix2 (rowOf y) k) = a' (ix2 (rowOf y') k))
    (hx : ∀ k : Fin K, x (ix2 (rowOf y) k) = x' (ix2 (rowOf y') k))
    (hwr : ∀ k : Fin K, wr (ix2 k (colOf y)) = wr' (ix2 k (colOf y')))
    (hwo : ∀ k : Fin K, wo (ix2 k (colOf y)) = wo' (ix2 k (colOf y')))
    (hb : b (colOf y) = b' (colOf y')) :
    conv a x wr wo b y = conv a' x' wr' wo' b' y' := by
  show (prod a wr y + prod x wo y) + b (colOf y) = (prod a' wr' y' + prod x' wo' y') + b' (colOf y')
  rw [Cert.RowBias.prod_entry_congr y y' ha hwr, Cert.RowBias.prod_entry_congr y y' hx hwo, hb]

/-- The same for the floored step. -/
theorem convMax_entry_congr {R R' K N : ℕ}
    {a x : (⟨2, ![R, K]⟩ : Shape).Idx → EReal} {a' x' : (⟨2, ![R', K]⟩ : Shape).Idx → EReal}
    {wr wo wr' wo' : (⟨2, ![K, N]⟩ : Shape).Idx → EReal} {b b' : Fin N → EReal} (z : EReal)
    (y : (⟨2, ![R, N]⟩ : Shape).Idx) (y' : (⟨2, ![R', N]⟩ : Shape).Idx)
    (ha : ∀ k : Fin K, a (ix2 (rowOf y) k) = a' (ix2 (rowOf y') k))
    (hx : ∀ k : Fin K, x (ix2 (rowOf y) k) = x' (ix2 (rowOf y') k))
    (hwr : ∀ k : Fin K, wr (ix2 k (colOf y)) = wr' (ix2 k (colOf y')))
    (hwo : ∀ k : Fin K, wo (ix2 k (colOf y)) = wo' (ix2 k (colOf y')))
    (hb : b (colOf y) = b' (colOf y')) :
    convMax a x wr wo b z y = convMax a' x' wr' wo' b' z y' := by
  show max (conv a x wr wo b y) z = max (conv a' x' wr' wo' b' y') z
  rw [conv_entry_congr y y' ha hx hwr hwo hb]

/-- The vector unit's spelling on a block: both products on the matrix unit into a zero accumulator (operands of any
    float formats), added, then the one-row bias spread down the rows and added last. -/
theorem vec_conv {M K N : ℕ} {φ₁ φ₂ φ₃ φ₄ : FTy} (prec : Option ContractPrecision)
    (a : FVec Ideal ⟨2, ![M, K]⟩ φ₁) (wr : FVec Ideal ⟨2, ![K, N]⟩ φ₂)
    (x : FVec Ideal ⟨2, ![M, K]⟩ φ₃) (wo : FVec Ideal ⟨2, ![K, N]⟩ φ₄)
    (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) :
    addf (addf (FloatOps.matmul (DotDims.plain M K N) prec a wr (constant (F := Ideal) ⟨2, ![M, N]⟩ .f32 0x00000000#32))
               (FloatOps.matmul (DotDims.plain M K N) prec x wo (constant (F := Ideal) ⟨2, ![M, N]⟩ .f32 0x00000000#32)))
         (broadcastTo ⟨2, ![M, N]⟩ (shapeCast ⟨2, ![1, N]⟩ b hc) hb)
      = conv a x wr wo (fun j => b (ix2 0 j)) := by
  rw [Cert.MatProduct.matmul_zero_eq_prod, Cert.MatProduct.matmul_zero_eq_prod, shapeCast_self]
  funext y
  rw [addf_apply, addf_apply, Cert.RowBias.spreadRow_apply]
  rfl

/-- The same with the maximum against a splat taken last. -/
theorem vec_convMax {M K N : ℕ} {φ₁ φ₂ φ₃ φ₄ : FTy} (prec : Option ContractPrecision)
    (a : FVec Ideal ⟨2, ![M, K]⟩ φ₁) (wr : FVec Ideal ⟨2, ![K, N]⟩ φ₂)
    (x : FVec Ideal ⟨2, ![M, K]⟩ φ₃) (wo : FVec Ideal ⟨2, ![K, N]⟩ φ₄)
    (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (z : Ideal .f32) :
    maximumf (addf (addf (FloatOps.matmul (DotDims.plain M K N) prec a wr (constant (F := Ideal) ⟨2, ![M, N]⟩ .f32 0x00000000#32))
               (FloatOps.matmul (DotDims.plain M K N) prec x wo (constant (F := Ideal) ⟨2, ![M, N]⟩ .f32 0x00000000#32)))
         (broadcastTo ⟨2, ![M, N]⟩ (shapeCast ⟨2, ![1, N]⟩ b hc) hb)) (broadcast ⟨2, ![M, N]⟩ z)
      = convMax a x wr wo (fun j => b (ix2 0 j)) z := by
  rw [vec_conv]
  funext y
  rw [maximumf_apply, broadcast_apply]
  rfl

/-- The host's spelling on the whole array: the first product, plus the bias vector regarded as one row and repeated
    down the rows, plus the second product. The bias changes places with the second product by commutativity and
    associativity of addition on the extended reals. -/
theorem host_conv {R K N : ℕ} {φ₁ φ₂ φ₃ φ₄ : FTy} (prec : Option ContractPrecision) (sched : HostSchedule)
    (a : FVec Ideal ⟨2, ![R, K]⟩ φ₁) (wr : FVec Ideal ⟨2, ![K, N]⟩ φ₂)
    (x : FVec Ideal ⟨2, ![R, K]⟩ φ₃) (wo : FVec Ideal ⟨2, ![K, N]⟩ φ₄)
    (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (addf (FloatOps.dotGeneral (DotDims.plain R K N) prec sched a wr)
               (broadcastInDim ⟨2, ![R, N]⟩ ![0, 1] h2 (broadcastInDim ⟨2, ![1, N]⟩ ![1] h1 bv)))
         (FloatOps.dotGeneral (DotDims.plain R K N) prec sched x wo)
      = conv a x wr wo (fun j => bv (ix1 j)) := by
  rw [Cert.MatProduct.dotGeneral_eq_prod, Cert.MatProduct.dotGeneral_eq_prod]
  funext y
  rw [addf_apply, addf_apply]
  have hy := Cert.MatProduct.eq_row_col y
  have hbias : broadcastInDim ⟨2, ![R, N]⟩ ![0, 1] h2 (broadcastInDim ⟨2, ![1, N]⟩ ![1] h1 bv) y = bv (ix1 (colOf y)) := by
    rw [hy, Cert.LibHostRow.rows_apply, Cert.LibHostRow.row_apply]
    rfl
  rw [hbias]
  exact add_right_comm _ _ _

/-- The host's floored step: the maximum against a scalar spread over the whole array. -/
theorem host_convMax {R K N : ℕ} {φ₁ φ₂ φ₃ φ₄ : FTy} (prec : Option ContractPrecision) (sched : HostSchedule)
    (a : FVec Ideal ⟨2, ![R, K]⟩ φ₁) (wr : FVec Ideal ⟨2, ![K, N]⟩ φ₂)
    (x : FVec Ideal ⟨2, ![R, K]⟩ φ₃) (wo : FVec Ideal ⟨2, ![K, N]⟩ φ₄)
    (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (zs : FVec Ideal ⟨0, ![]⟩ .f32)
    (h0 : (⟨0, ![]⟩ : Shape).BroadcastsInDim ⟨2, ![R, N]⟩ (![] : Fin 0 → Fin 2)) :
    maximumf (addf (addf (FloatOps.dotGeneral (DotDims.plain R K N) prec sched a wr)
               (broadcastInDim ⟨2, ![R, N]⟩ ![0, 1] h2 (broadcastInDim ⟨2, ![1, N]⟩ ![1] h1 bv)))
         (FloatOps.dotGeneral (DotDims.plain R K N) prec sched x wo))
       (broadcastInDim ⟨2, ![R, N]⟩ ![] h0 zs)
      = convMax a x wr wo (fun j => bv (ix1 j)) (zs ix0) := by
  rw [host_conv]
  funext y
  rw [maximumf_apply, Cert.LibHostRow.scalar_apply]
  rfl

end Cert.GraphConv

end
-- ==== Proof.KernelPayload.lean ====
/-
  What one grid point stores, as a function of the blocks it loads.

  Both launches run the same body on a block of 5000 rows: the neighbour sums and the node features of those rows are
  narrowed, multiplied on the matrix unit by the two 64 × 64 weight matrices into zero accumulators, the two products
  are added, the one-row bias is spread down the rows and added, and (first launch only) the maximum with zero is
  taken. On the extended reals the narrowing is the identity, so the stored block is the dense step `conv` (floored at
  zero in the first launch) of the loaded blocks.
-/
import proofs.«159443_j26431228739921_1_alg».proof.Proof.Gen.KernelIdeal.Skeleton
import proofs.«159443_j26431228739921_1_alg».proof.Proof.LibGraphConv

noncomputable section

namespace Cert.KernelIdeal.Block

open Cert.KernelIdeal Cert.KernelIdeal.Gen
open Idealize.ShloMosaic Idealize.ShloMosaic.ValueIdx
open Cert.GraphConv

/-- The zero the first launch floors at, as the body spells it. -/
abbrev zeroWord : Ideal .f32 := Scalar.ofBits (F := Ideal) .f32 0x00000000#32

/-- The first launch's stored block: the dense step of the loaded blocks, floored at zero. -/
theorem pay0_eq (x0 x1 : Vec Ideal S5000x64 .f32) (x2 x3 : Vec Ideal S64x64 .f32) (x4 : Vec Ideal S1x64 .f32) :
    k0_pay1 (F := Ideal) x0 x1 x2 x3 x4
      = convMax (R := 5000) (K := 64) (N := 64) x0 x1 x2 x3 (fun j => x4 (ix2 0 j)) zeroWord := by
  unfold k0_pay1
  dsimp only
  rw [shapeCast_self]
  exact vec_convMax (M := 5000) (K := 64) (N := 64) none (truncf .bf16 x0 _) (truncf .bf16 x2 _) (truncf .bf16 x1 _) (truncf .bf16 x3 _)
    x4 _ _ _

/-- The second launch's stored block: the dense step of the loaded blocks. -/
theorem pay1_eq (x0 x1 : Vec Ideal S5000x64 .f32) (x2 x3 : Vec Ideal S64x64 .f32) (x4 : Vec Ideal S1x64 .f32) :
    k1_pay1 (F := Ideal) x0 x1 x2 x3 x4
      = conv (R := 5000) (K := 64) (N := 64) x0 x1 x2 x3 (fun j => x4 (ix2 0 j)) := by
  unfold k1_pay1
  dsimp only
  rw [shapeCast_self, shapeCast_self]
  exact vec_conv (M := 5000) (K := 64) (N := 64) none (truncf .bf16 x0 _) (truncf .bf16 x2 _) (truncf .bf16 x1 _) (truncf .bf16 x3 _)
    x4 _ _

end Cert.KernelIdeal.Block

end
-- ==== Proof.KernelLaunch0.lean ====
/-
  The first launch's output array, whole.

  Grid point t loads rows 5000·t … 5000·t + 4999 of the neighbour sums and of the node features, the two weight matrices
  and the bias row whole, and writes back the same rows of the output. An entry of the dense step reads its operands
  only along its own row and column, so what point t writes back is rows 5000·t … of the dense step of the WHOLE
  arrays; the twenty blocks tile the 100000 rows, so after the launch the output array is that whole-array function
  of the arrays the launch found.
-/
import proofs.«159443_j26431228739921_1_alg».proof.Proof.Gen.KernelIdeal.Frame
import proofs.«159443_j26431228739921_1_alg».proof.Proof.KernelPayload
import Idealize.ShloMosaic.Lib.Pipeline.Value

set_option maxRecDepth 16384

noncomputable section

namespace Cert.KernelIdeal.Launch0

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)
open Cert.GraphConv
open Cert.MatProduct (rowOf colOf)

variable (V : (c : Dev nD) → (b : Ref sig .tc) → Buf (Elt Ideal) ((c : Thread nD τ).loc b))

theorem offsets_zero : (![0, 0] : Fin 2 → Nat) = fun _ => 0 := funext fun a => by fin_cases a <;> rfl

/-- The floored dense step of the whole arrays the launch finds: neighbour sums, node features, the two weight
    matrices, and the bias row. -/
def layer (c : Dev nD) : S100000x64.Idx → Elt Ideal .f32 :=
  convMax (R := 100000) (K := 64) (N := 64) (V c main_v16) (V c main_arg0) (V c main_arg3) (V c main_arg5)
    (fun j => V c main_v17 (ix2 0 j)) zeroWord

/-- The index maps, decided over the twenty points: the two row-blocked inputs move with the output's row block, the
    matrices and the bias stay at block (0, 0), and no window moves along the columns. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every row block is some point's. -/
theorem index_onto : ∀ q : Fin 20, ∃ t : Fin cfg0.N, win0_5.index t = ![q.val, 0] :=
  (by decide +kernel : ∀ q : Fin 20, ∃ t : Fin grid0.N, win0_5.index t = ![q.val, 0])

/-- What point t writes back is block t of the whole-array function. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero offsets_zero]
  simp only [View.ld_unit_zero (S := S5000x64) offsets_zero, View.ld_unit_zero (S := S64x64) offsets_zero,
    View.ld_unit_zero (S := S1x64) offsets_zero]
  rw [pay0_eq]
  obtain ⟨e00, e01, e10, e11, e20, e21, e30, e31, e40, e41, e51⟩ := index_facts t
  funext j
  have hj0 : (j 0).val < 5000 := (j 0).isLt
  have hj1 : (j 1).val < 64 := (j 1).isLt
  show convMax (R := 5000) (K := 64) (N := 64) (iblk0 V c 0 t) (iblk0 V c 1 t) (iblk0 V c 2 t) (iblk0 V c 3 t)
      (fun q => iblk0 V c 4 t (ix2 0 q)) zeroWord j
    = layer V c (((cfg0.win 5).blk t).view.emb j)
  unfold layer
  refine convMax_entry_congr zeroWord j (((cfg0.win 5).blk t).view.emb j) (fun k => ?_) (fun k => ?_) (fun k => ?_) (fun k => ?_) ?_
  · -- the neighbour sums: row p of the block is row 5000·t + p of the array
    show V c main_v16 (((cfg0.win 0).blk t).view.emb (ix2 (rowOf j) k)) = V c main_v16 (ix2 (rowOf (((cfg0.win 5).blk t).view.emb j)) k)
    refine congrArg (V c main_v16) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  · -- the node features, likewise
    show V c main_arg0 (((cfg0.win 1).blk t).view.emb (ix2 (rowOf j) k)) = V c main_arg0 (ix2 (rowOf (((cfg0.win 5).blk t).view.emb j)) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * k.val = k.val; omega
  · -- the first matrix is loaded whole; the output's column is the block's column
    show V c main_arg3 (((cfg0.win 2).blk t).view.emb (ix2 k (colOf j))) = V c main_arg3 (ix2 k (colOf (((cfg0.win 5).blk t).view.emb j)))
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  · -- the second matrix, likewise
    show V c main_arg5 (((cfg0.win 3).blk t).view.emb (ix2 k (colOf j))) = V c main_arg5 (ix2 k (colOf (((cfg0.win 5).blk t).view.emb j)))
    refine congrArg (V c main_arg5) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  · -- the bias row is loaded whole
    show V c main_v17 (((cfg0.win 4).blk t).view.emb (ix2 0 (colOf j))) = V c main_v17 (ix2 0 (colOf (((cfg0.win 5).blk t).view.emb j)))
    refine congrArg (V c main_v17) (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega

/-- An index of the output array is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v18).slice (win0_5.rect t)).set ↔ _
  rw [View.set_slice_whole, Rect.mem_set_unit]
  exact Iff.rfl

/-- The blocks cover the array: row r is in the block of point r / 5000. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the launch the output array is the floored dense step of the arrays the launch found. -/
theorem array_eq (c : Dev nD) : (dat0 V c).arrAt 5 cfg0.N = layer V c :=
  (dat0 V c).arrAt_eq_of_cover 5 (layer V c) (fun t _ => flushed_eq V c t) (covered)

end Cert.KernelIdeal.Launch0

end
-- ==== Proof.KernelLaunch1.lean ====
/-
  The second launch's output array, whole.

  Grid point t loads rows 5000·t … 5000·t + 4999 of the second layer's neighbour sums and of the hidden features (the
  first launch's output), the two weight matrices
  and the bias row whole, and writes back the same rows of the output. An entry of the dense step reads its operands
  only along its own row and column, so what point t writes back is rows 5000·t … of the dense step of the WHOLE
  arrays; the twenty blocks tile the 100000 rows, so after the launch the output array is that whole-array function
  of the arrays the launch found.
-/
import proofs.«159443_j26431228739921_1_alg».proof.Proof.Gen.KernelIdeal.Frame
import proofs.«159443_j26431228739921_1_alg».proof.Proof.KernelPayload
import Idealize.ShloMosaic.Lib.Pipeline.Value

set_option maxRecDepth 16384

noncomputable section

namespace Cert.KernelIdeal.Launch1

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)
open Cert.GraphConv
open Cert.MatProduct (rowOf colOf)

variable (V : (c : Dev nD) → (b : Ref sig .tc) → Buf (Elt Ideal) ((c : Thread nD τ).loc b))

theorem offsets_zero : (![0, 0] : Fin 2 → Nat) = fun _ => 0 := funext fun a => by fin_cases a <;> rfl

/-- The dense step of the whole arrays the launch finds: neighbour sums of the hidden features, the hidden features,
    the two weight matrices, and the bias row (no floor in the last layer). -/
def layer (c : Dev nD) : S100000x64.Idx → Elt Ideal .f32 :=
  conv (R := 100000) (K := 64) (N := 64) (V c main_v31) (V c main_v18) (V c main_arg6) (V c main_arg8)
    (fun j => V c main_v32 (ix2 0 j))

/-- The index maps, decided over the twenty points: the two row-blocked inputs move with the output's row block, the
    matrices and the bias stay at block (0, 0), and no window moves along the columns. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every row block is some point's. -/
theorem index_onto : ∀ q : Fin 20, ∃ t : Fin cfg1.N, win1_5.index t = ![q.val, 0] :=
  (by decide +kernel : ∀ q : Fin 20, ∃ t : Fin grid1.N, win1_5.index t = ![q.val, 0])

/-- What point t writes back is block t of the whole-array function. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero offsets_zero]
  simp only [View.ld_unit_zero (S := S5000x64) offsets_zero, View.ld_unit_zero (S := S64x64) offsets_zero,
    View.ld_unit_zero (S := S1x64) offsets_zero]
  rw [pay1_eq]
  obtain ⟨e00, e01, e10, e11, e20, e21, e30, e31, e40, e41, e51⟩ := index_facts t
  funext j
  have hj0 : (j 0).val < 5000 := (j 0).isLt
  have hj1 : (j 1).val < 64 := (j 1).isLt
  show conv (R := 5000) (K := 64) (N := 64) (iblk1 V c 0 t) (iblk1 V c 1 t) (iblk1 V c 2 t) (iblk1 V c 3 t)
      (fun q => iblk1 V c 4 t (ix2 0 q)) j
    = layer V c (((cfg1.win 5).blk t).view.emb j)
  unfold layer
  refine conv_entry_congr j (((cfg1.win 5).blk t).view.emb j) (fun k => ?_) (fun k => ?_) (fun k => ?_) (fun k => ?_) ?_
  · -- the neighbour sums: row p of the block is row 5000·t + p of the array
    show V c main_v31 (((cfg1.win 0).blk t).view.emb (ix2 (rowOf j) k)) = V c main_v31 (ix2 (rowOf (((cfg1.win 5).blk t).view.emb j)) k)
    refine congrArg (V c main_v31) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · -- the hidden features, likewise
    show V c main_v18 (((cfg1.win 1).blk t).view.emb (ix2 (rowOf j) k)) = V c main_v18 (ix2 (rowOf (((cfg1.win 5).blk t).view.emb j)) k)
    refine congrArg (V c main_v18) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · -- the first matrix is loaded whole; the output's column is the block's column
    show V c main_arg6 (((cfg1.win 2).blk t).view.emb (ix2 k (colOf j))) = V c main_arg6 (ix2 k (colOf (((cfg1.win 5).blk t).view.emb j)))
    refine congrArg (V c main_arg6) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · -- the second matrix, likewise
    show V c main_arg8 (((cfg1.win 3).blk t).view.emb (ix2 k (colOf j))) = V c main_arg8 (ix2 k (colOf (((cfg1.win 5).blk t).view.emb j)))
    refine congrArg (V c main_arg8) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  · -- the bias row is loaded whole
    show V c main_v32 (((cfg1.win 4).blk t).view.emb (ix2 0 (colOf j))) = V c main_v32 (ix2 0 (colOf (((cfg1.win 5).blk t).view.emb j)))
    refine congrArg (V c main_v32) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point t's block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v33).slice (win1_5.rect t)).set ↔ _
  rw [View.set_slice_whole, Rect.mem_set_unit]
  exact Iff.rfl

/-- The blocks cover the array: row r is in the block of point r / 5000. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the launch the output array is the dense step of the arrays the launch found. -/
theorem array_eq (c : Dev nD) : (dat1 V c).arrAt 5 cfg1.N = layer V c :=
  (dat1 V c).arrAt_eq_of_cover 5 (layer V c) (fun t _ => flushed_eq V c t) (covered)

end Cert.KernelIdeal.Launch1

end
-- ==== Proof.KernelValue.lean ====
/-
  The kernel program's result as a function of its arguments.

  The first launch finds the neighbour sums of the input features, the input features, the first layer's matrices and
  its bias row, and leaves the floored dense step of them: the hidden features. No host operation writes that array
  again. The second launch finds the neighbour sums of the hidden features (same source rows, destination rows and
  edge weights), the hidden features, the second layer's matrices and bias row, and leaves their dense step: the
  program's result.
-/
import proofs.«159443_j26431228739921_1_alg».proof.Proof.KernelRun
import proofs.«159443_j26431228739921_1_alg».proof.Proof.KernelHost
import proofs.«159443_j26431228739921_1_alg».proof.Proof.KernelLaunch0
import proofs.«159443_j26431228739921_1_alg».proof.Proof.KernelLaunch1

set_option maxRecDepth 16384

noncomputable section

namespace Cert.KernelIdeal.Whole

open Cert.KernelIdeal Cert.KernelIdeal.Gen Cert.KernelIdeal.HostSide Cert.KernelIdeal.Block
open Idealize.ShloMosaic Idealize.ShloMosaic.TcCoe Idealize.ShloMosaic.ValueIdx Idealize.SL.Sem
open Cert.GraphConv

variable (m : (ℓ : Loc nD τ sig) → Buf (Elt Ideal) ℓ) (ρ : Dev nD → PrngReg)

/-- The hidden features: the first layer's dense step of the arguments, floored at zero. -/
def hidden (c : Dev nD) : S100000x64.Idx → Elt Ideal .f32 :=
  convMax (R := 100000) (K := 64) (N := 64)
    (agg (m ((c : Thread nD τ).loc main_arg0)) (srcOf (m ((c : Thread nD τ).loc main_arg1))) (dstOf (m ((c : Thread nD τ).loc main_arg1)))
      (m ((c : Thread nD τ).loc main_arg2)))
    (m ((c : Thread nD τ).loc main_arg0)) (m ((c : Thread nD τ).loc main_arg3)) (m ((c : Thread nD τ).loc main_arg5))
    (fun j => m ((c : Thread nD τ).loc main_arg4) (ix1 j)) zeroWord

/-- The result: the second layer's dense step of the hidden features. -/
def result (c : Dev nD) : S100000x64.Idx → Elt Ideal .f32 :=
  conv (R := 100000) (K := 64) (N := 64)
    (agg (hidden m c) (srcOf (m ((c : Thread nD τ).loc main_arg1))) (dstOf (m ((c : Thread nD τ).loc main_arg1)))
      (m ((c : Thread nD τ).loc main_arg2)))
    (hidden m c) (m ((c : Thread nD τ).loc main_arg6)) (m ((c : Thread nD τ).loc main_arg8))
    (fun j => m ((c : Thread nD τ).loc main_arg7) (ix1 j))

/-- After the first launch its output array holds the hidden features. -/
theorem first_array (c : Dev nD) : W2 m ρ c (Proc.devRef .tc main_v18) = hidden m c := by
  refine (W2_arr m ρ c 5).trans ?_
  rw [Launch0.array_eq (V1 m ρ) c]
  unfold Launch0.layer hidden
  have hb : (fun j : Fin 64 => V1 m ρ c main_v17 (ix2 0 j)) = fun j => m ((c : Thread nD τ).loc main_arg4) (ix1 j) :=
    funext fun j => by rw [first_bias]; exact Cert.RowBias.vecRow_apply _ _ j
  rw [hb, first_agg, first_x, first_wrel, first_wroot]

/-- What the host stretch between the launches reads besides the hidden features was fixed before the first launch. -/
theorem between_src (c : Dev nD) : W2 m ρ c (Proc.devRef .tc main_v1) = srcOf (m ((c : Thread nD τ).loc main_arg1)) :=
  (W2_of_ne m ρ c main_v1 (by decide)).trans (first_src m ρ c)
theorem between_dst (c : Dev nD) : W2 m ρ c (Proc.devRef .tc main_v3) = dstOf (m ((c : Thread nD τ).loc main_arg1)) :=
  (W2_of_ne m ρ c main_v3 (by decide)).trans (first_dst m ρ c)
theorem between_weights (c : Dev nD) : W2 m ρ c (Proc.devRef .tc main_arg2) = m ((c : Thread nD τ).loc main_arg2) :=
  (W2_of_ne m ρ c main_arg2 (by decide)).trans (first_keeps m ρ c main_arg2 (.inl rfl))
theorem between_wrel (c : Dev nD) : W2 m ρ c (Proc.devRef .tc main_arg6) = m ((c : Thread nD τ).loc main_arg6) :=
  (W2_of_ne m ρ c main_arg6 (by decide)).trans (first_keeps m ρ c main_arg6 (.inr (.inl rfl)))
theorem between_bias (c : Dev nD) : W2 m ρ c (Proc.devRef .tc main_arg7) = m ((c : Thread nD τ).loc main_arg7) :=
  (W2_of_ne m ρ c main_arg7 (by decide)).trans (first_keeps m ρ c main_arg7 (.inr (.inr (.inl rfl))))
theorem between_wroot (c : Dev nD) : W2 m ρ c (Proc.devRef .tc main_arg8) = m ((c : Thread nD τ).loc main_arg8) :=
  (W2_of_ne m ρ c main_arg8 (by decide)).trans (first_keeps m ρ c main_arg8 (.inr (.inr (.inr rfl))))

/-- After the second launch the result buffer holds the result. -/
theorem result_array (c : Dev nD) : W4 m ρ c (Proc.devRef .tc main_v33) = result m c := by
  refine (W4_arr m ρ c 5).trans ?_
  rw [Launch1.array_eq (V3 m ρ) c]
  unfold Launch1.layer result
  have hb : (fun j : Fin 64 => V3 m ρ c main_v32 (ix2 0 j)) = fun j => m ((c : Thread nD τ).loc main_arg7) (ix1 j) :=
    funext fun j => by rw [second_bias, between_bias]; exact Cert.RowBias.vecRow_apply _ _ j
  rw [hb, second_agg, second_h, second_wrel, second_wroot, first_array, between_src, between_dst, between_weights,
    between_wrel, between_wroot]

/-- The run, read: the result buffer ends at the result, the arguments as launched. -/
theorem run : θ_run defs (onTc (τ := τ) (main (F := Ideal))) ⟨m, fun _ => 0, ρ⟩ (fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h c).1.trans (result_array m ρ c), (h c).2⟩) (run_last m ρ)

end Cert.KernelIdeal.Whole

end
-- ==== Proof.ReferenceValue.lean ====
/-
  The reference program's result, as the dense step of neighbour sums.

  The reference is one straight line of host operations. Each layer computes the neighbour sums `agg` (the same
  gather / scale / scatter-add stretch as the kernel program's, never opened here), then the product with the relation
  matrix, plus the bias vector regarded as one row and repeated down the rows, plus the product of the features with
  the root matrix; the first layer is followed by the maximum with a zero spread over the array. The generated run
  states the result as one composed term; here that term is folded back into these named stages, and each stage is the
  whole-array dense step `conv` / `convMax`.
-/
import proofs.«159443_j26431228739921_1_alg».proof.Proof.Gen.ReferenceIdeal.Run
import proofs.«159443_j26431228739921_1_alg».proof.Proof.LibGraphConv

set_option maxRecDepth 16384

noncomputable section

namespace Cert.ReferenceIdeal.Whole

open Cert.ReferenceIdeal Cert.ReferenceIdeal.Gen
open Idealize.ShloMosaic Idealize.ShloMosaic.TcCoe Idealize.SL.Sem Idealize.ShloMosaic.ValueIdx
open Cert.GraphConv

/-- The edges' source rows: row 0 of the edge-index array. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' destination rows: row 1 of the edge-index array. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The neighbour sums: for every edge the source row of `x` (a negative row number wrapped by the row count) scaled
    by the edge's weight, added into the destination row of a zero array. -/
def agg (x : (⟨S100000x64, .f32⟩ : BufTy).Contents (Elt Ideal)) (src dst : (⟨S1600000, .i32⟩ : BufTy).Contents (Elt Ideal))
    (ew : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 ew)))

/-- One layer's dense step as the host spells it: the bias is added between the two products. -/
def dense (a x : FVec Ideal S100000x64 .f32) (wr wo : FVec Ideal S64x64 .f32)
    (bv : FVec Ideal S64 .f32) : FVec Ideal S100000x64 .f32 :=
  addf (addf (Host.dotGeneral dot_S100000x64_S64x64_S100000x64_1_0_0_1_n_n none a wr)
      (broadcastInDim S100000x64 ![0, 1] bcast_S1x64_S100000x64_0_1 (broadcastInDim S1x64 ![1] bcast_S64_S1x64_1 bv)))
    (Host.dotGeneral dot_S100000x64_S64x64_S100000x64_1_0_0_1_n_n none x wo)

/-- The rectifier as the host spells it: the maximum with a zero spread over the array. -/
def relu (h : FVec Ideal S100000x64 .f32) : FVec Ideal S100000x64 .f32 :=
  maximumf h (broadcastInDim S100000x64 ![] bcast_S_S100000x64 (constant (F := Ideal) S_ .f32 0x00000000#32))

/-- The zero the rectifier floors at, as the host spells it. -/
abbrev zeroWord : Ideal .f32 := constant (F := Ideal) S_ .f32 0x00000000#32 ix0

/-- The host's dense step is the whole-array dense step. -/
theorem dense_eq (a x : FVec Ideal S100000x64 .f32) (wr wo : FVec Ideal S64x64 .f32)
    (bv : FVec Ideal S64 .f32) :
    dense a x wr wo bv = conv (R := 100000) (K := 64) (N := 64) a x wr wo (fun j => bv (ix1 j)) := by
  unfold dense
  exact host_conv (R := 100000) (K := 64) (N := 64) none .single a wr x wo bv _ _

/-- The host's rectified dense step is the whole-array dense step floored at zero. -/
theorem relu_dense_eq (a x : FVec Ideal S100000x64 .f32) (wr wo : FVec Ideal S64x64 .f32)
    (bv : FVec Ideal S64 .f32) :
    relu (dense a x wr wo bv) = convMax (R := 100000) (K := 64) (N := 64) a x wr wo (fun j => bv (ix1 j)) zeroWord := by
  unfold relu dense
  exact host_convMax (R := 100000) (K := 64) (N := 64) none .single a wr x wo bv _ _ _ _

variable (m : (ℓ : Loc nD τ sig) → Buf (Elt Ideal) ℓ)

/-- The hidden features: the first layer's rectified dense step. -/
def hidden (c : Dev nD) : FVec Ideal S100000x64 .f32 :=
  relu (dense (agg (m ((c.tc : Thread nD τ).loc main_arg0)) (srcOf (m ((c.tc : Thread nD τ).loc main_arg1))) (dstOf (m ((c.tc : Thread nD τ).loc main_arg1)))
        (m ((c.tc : Thread nD τ).loc main_arg2)))
      (m ((c.tc : Thread nD τ).loc main_arg0)) (m ((c.tc : Thread nD τ).loc main_arg3)) (m ((c.tc : Thread nD τ).loc main_arg5))
      (m ((c.tc : Thread nD τ).loc main_arg4)))

set_option maxRecDepth 65536 in
/-- The run's composed term, folded back into the two layers. -/
theorem result_stages (c : Dev nD) : Value.res_main_v42 (F := Ideal) m c
    = dense (agg (hidden m c) (srcOf (m ((c.tc : Thread nD τ).loc main_arg1))) (dstOf (m ((c.tc : Thread nD τ).loc main_arg1)))
          (m ((c.tc : Thread nD τ).loc main_arg2)))
        (hidden m c) (m ((c.tc : Thread nD τ).loc main_arg6)) (m ((c.tc : Thread nD τ).loc main_arg8))
        (m ((c.tc : Thread nD τ).loc main_arg7)) := by
  unfold Value.res_main_v42
  unfold hidden
  unfold dense
  unfold relu
  unfold agg
  unfold srcOf dstOf
  rfl

/-- The hidden features as the whole-array dense step of the arguments, floored at zero. -/
def hiddenStep (c : Dev nD) : S100000x64.Idx → Elt Ideal .f32 :=
  convMax (R := 100000) (K := 64) (N := 64)
    (agg (m ((c.tc : Thread nD τ).loc main_arg0)) (srcOf (m ((c.tc : Thread nD τ).loc main_arg1))) (dstOf (m ((c.tc : Thread nD τ).loc main_arg1)))
      (m ((c.tc : Thread nD τ).loc main_arg2)))
    (m ((c.tc : Thread nD τ).loc main_arg0)) (m ((c.tc : Thread nD τ).loc main_arg3)) (m ((c.tc : Thread nD τ).loc main_arg5))
    (fun j => m ((c.tc : Thread nD τ).loc main_arg4) (ix1 j)) zeroWord

theorem hidden_eq (c : Dev nD) : hidden m c = hiddenStep m c := by
  unfold hidden hiddenStep
  exact relu_dense_eq _ _ _ _ _

/-- The result as the whole-array dense step of the hidden features. -/
def result (c : Dev nD) : S100000x64.Idx → Elt Ideal .f32 :=
  conv (R := 100000) (K := 64) (N := 64)
    (agg (hiddenStep m c) (srcOf (m ((c.tc : Thread nD τ).loc main_arg1))) (dstOf (m ((c.tc : Thread nD τ).loc main_arg1)))
      (m ((c.tc : Thread nD τ).loc main_arg2)))
    (hiddenStep m c) (m ((c.tc : Thread nD τ).loc main_arg6)) (m ((c.tc : Thread nD τ).loc main_arg8))
    (fun j => m ((c.tc : Thread nD τ).loc main_arg7) (ix1 j))

/-- The reference run's result term is that function of the arguments. -/
theorem result_eq (c : Dev nD) : Value.res_main_v42 (F := Ideal) m c = result m c := by
  rw [result_stages, dense_eq, hidden_eq]
  rfl

end Cert.ReferenceIdeal.Whole

end
-- ==== Proof.lean ====
/-
  A two-layer graph convolution with edge weights: the Pallas program against its jnp reference, on the extended reals.

  Each layer sums, for every node, the features of its in-neighbours scaled by the edge weights (a gather of source
  rows, a product with the weights, a scatter-add into destination rows), and then maps the pair (neighbour sums,
  features) to

      sums · W_rel + features · W_root + b,

  the first layer followed by a rectifier. Both programs compute the neighbour sums on the host with the same
  operations. The kernel program evaluates the dense step in a kernel launched over twenty blocks of 5000 rows, adding
  the bias after both products, (p + q) + b, and takes the maximum with zero in the first layer's kernel; the
  reference evaluates it on the whole arrays, adding the bias between the products, (p + b) + q, and applies the
  rectifier as a maximum with a zero array. Addition on the extended reals is commutative and associative without
  any finiteness condition, and an entry of the dense step reads its operands only along its own row and column, so
  the twenty row blocks of the kernel's result are the rows of the reference's. Narrowing to bf16 before the matrix
  unit is the identity on the extended reals. The precondition (finite inputs) is not used.

  The three frames: the two kernel programs' are the generated ones; the reference has no kernel, and its frame is
  its generated run with the result dropped. The idealization rewrote nothing, so there is nothing to preserve.
-/
import proofs.«159443_j26431228739921_1_alg».proof.Defs
import proofs.«159443_j26431228739921_1_alg».proof.Proof.Gen.Kernel
import proofs.«159443_j26431228739921_1_alg».proof.Proof.Gen.Kernel.Frame
import proofs.«159443_j26431228739921_1_alg».proof.Proof.Gen.KernelIdeal
import proofs.«159443_j26431228739921_1_alg».proof.Proof.Gen.KernelIdeal.Frame
import proofs.«159443_j26431228739921_1_alg».proof.Proof.Gen.ReferenceIdeal
import proofs.«159443_j26431228739921_1_alg».proof.Proof.Gen.ReferenceIdeal.Run
import proofs.«159443_j26431228739921_1_alg».proof.Proof.Gen.Pre_finite_inputs
import proofs.«159443_j26431228739921_1_alg».proof.Proof.KernelValue
import proofs.«159443_j26431228739921_1_alg».proof.Proof.ReferenceValue
import Idealize.ShloMosaic.Adequacy
import Idealize.ShloMosaic.Init

noncomputable section

namespace Cert.Proof

open Idealize.ShloMosaic Idealize.ShloMosaic.TcCoe Idealize.SL.Sem

/-! ## The two programs' host stretches are one function -/

/-- The neighbour sums: the two programs print the same gather, product and scatter-add with the same dimension records. -/
theorem agg_same : Cert.ReferenceIdeal.Whole.agg = Cert.KernelIdeal.HostSide.agg := rfl
/-- The source rows: row 0 of the edge-index array in both. -/
theorem src_same : Cert.ReferenceIdeal.Whole.srcOf = Cert.KernelIdeal.HostSide.srcOf := rfl
/-- The destination rows: row 1 of the edge-index array in both. -/
theorem dst_same : Cert.ReferenceIdeal.Whole.dstOf = Cert.KernelIdeal.HostSide.dstOf := rfl
/-- The rectifier's zero: the same word, a splat's entry in one program and a scalar constant in the other. -/
theorem zero_same : Cert.ReferenceIdeal.Whole.zeroWord = Cert.KernelIdeal.Block.zeroWord := rfl

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the nine arguments both programs end with the second layer's dense step of the hidden
    features in their result buffers: the same function of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Whole.result_eq m' c]
  obtain ⟨h0, h1, h2, h3, h4, h5, h6, h7, h8⟩ := hagree c
  unfold Cert.ReferenceIdeal.Whole.result Cert.ReferenceIdeal.Whole.hiddenStep
  rw [h0, h1, h2, h3, h4, h5, h6, h7, h8, agg_same, src_same, dst_same, zero_same]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
